-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S2x5000x128 : Shape := ⟨3, ![2, 5000, 128]⟩
abbrev S200x10000 : Shape := ⟨2, ![200, 10000]⟩
abbrev S2x200x128 : Shape := ⟨3, ![2, 200, 128]⟩
abbrev S200x128 : Shape := ⟨2, ![200, 128]⟩
abbrev S1x200x128 : Shape := ⟨3, ![1, 200, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S2x5000x128, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S2x200x128, .f32⟩
  | .local _ .vmem, ⟨7, _⟩ => ⟨S2x200x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  shapeCasts_S2x5000x128_S10000x128 : S2x5000x128.ShapeCasts S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x200x128.size a ≤ S2x5000x128.size a
  hwx0_4 : ∀ i : grid0.Coords, EltTy.bits .f32 = 32 ∨ (Rect.block (s := S2x5000x128) S2x200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSharedFrameTail.lean ====
/-
  A frame run for a one-region pipeline whose INPUT windows may read one and the same array, when @main GOES ON after
  the region with straight lines of host operations.

  The library's frame run around a region asks that the windows' arrays be pairwise distinct buffers.  When a kernel
  is given one array through several input windows, the full share of that buffer is dealt between the windows at
  the region's entry (`hsplit`) and is never put together again: every window's array is read back at the window's
  own share.  The lines after the region therefore cannot be handed "every array at the full share"; here they are
  handed what such a program's lines actually touch:

  * ONE designated output window's array, which the pipeline holds at the full share (the kernel's result), and
  * the unscoped buffers that are no window's array (the buffers that bypass the region).

  `tail_lines` runs the lines from the region's exit within that set, leaving every other window's array untouched
  at its share; `θ_run_frame_shared_tail` is the frame run: every window's array ends at `Dat.arrAt w N`, every
  bypassing buffer at the lines' result from the exit contents.

  Program-free: nothing here names a kernel.
-/
import Idealize.ShloMosaic.Lib.Pipeline.FrameSuffix

noncomputable section

namespace SharedArrayFrameTail

open Idealize.ShloMosaic Idealize.ShloMosaic.Pipeline
open Idealize.SL
open Idealize.SL.BI (sProp bigSep bigSep_map bigSep_insert bigSep_erase bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (sig) in
/-- The device buffers the lines after the region may touch: window `w₀`'s array and the bypassing buffers. -/
def tailSet {gr : Nat} {W : Nat} (win : Fin W → WinSpec sig gr) (w₀ : Fin W) : Finset (DevRef τ sig) :=
  insert (Proc.devRef .tc (arrRef win w₀)) ((restRefs sig win).map ⟨Proc.devRef (sig := sig) .tc, Proc.devRef_injective _⟩)

omit [Fintype P] [DecidableEq P] [∀ e, Nonempty (Val e)] in
/-- Those buffers held at `Wv`: window `w₀`'s array whole at the full share, and the bypassing buffers. -/
theorem held_tailSet {gr : Nat} {W : Nat} (win : Fin W → WinSpec sig gr) (w₀ : Fin W) (c : Dev nD) (Wv : Valuation τ sig Val) :
    (StableHlo.held (c.tc : Thread nD τ) (tailSet sig win w₀) Wv : sProp 𝕄)
      = iprop((((c.tc : Thread nD τ).loc (arrRef win w₀)) ↦{fullShare} Wv (Proc.devRef .tc (arrRef win w₀)))
          ∗ unscopedRest win c (fun b => Wv (Proc.devRef .tc b))) := by
  classical
  have hnot : Proc.devRef (τ := τ) .tc (arrRef win w₀) ∉ (restRefs sig win).map ⟨Proc.devRef (sig := sig) .tc, Proc.devRef_injective _⟩ := by
    intro h
    obtain ⟨b, hb, e⟩ := Finset.mem_map.mp h
    obtain rfl : b = arrRef win w₀ := Proc.devRef_injective (τ := τ) _ e
    exact (Finset.mem_sdiff.mp hb).2 (Finset.mem_image.mpr ⟨w₀, Finset.mem_univ _, rfl⟩)
  unfold StableHlo.held tailSet unscopedRest
  rw [bigSep_insert hnot, bigSep_map]
  rfl

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀
local notation "𝕍" => Variants.lift 𝒱₀

omit [Fintype P] [DecidableEq P] [∀ e, Nonempty (Val e)] in
/-- THE LINES AFTER THE REGION when input windows share an array: from the region's exit — the boundary, the windows'
    arrays at `F` each at its share, the bypassing buffers at `Wv` — the lines run within window `w₀`'s array (held at
    the full share: `hshare₀`; at `Wv` too: `hW₀`) and the bypassing buffers (`hsub`), not writing that array
    (`hkeep`), and hand back the arrays as they were and the bypassing buffers at the lines' result. -/
theorem tail_lines (c : Dev nD) (w₀ : Fin (cfgs p).W) (hshare₀ : (dats p c).share w₀ = fullShare)
    (harr₀ : ((cfgs p).spec w₀).arr.IsWhole)
    (F : (w : Fin (cfgs p).W) → Buf Val (((cfgs p).spec w).arr.view.loc (c.tc : Thread nD τ)))
    (Wv : Valuation τ sig Val) (hW₀ : Wv (Proc.devRef .tc (arrRef (cfgs p).spec w₀)) = F w₀)
    (opss : List (List (HloOp τ sig Val)))
    (hsub : ∀ ops ∈ opss, ∀ op ∈ ops, op.bufs ⊆ tailSet sig (cfgs p).spec w₀)
    (hfresh : ∀ ops ∈ opss, ∀ op ∈ ops, op.fresh = ∅)
    (hkeep : ∀ ops ∈ opss, ∀ op ∈ ops, Proc.devRef .tc (arrRef (cfgs p).spec w₀) ∉ op.writes)
    (Q' : PUnit → sProp 𝕄) :
    iprop((iprop((dats p c).arrays F ∗ unscopedRest (cfgs p).spec c (fun b => StableHlo.after opss.flatten Wv (Proc.devRef .tc b))) -∗ Q' ⟨⟩)
        ∗ boundary (c.tc : Thread nD τ) ∗ (dats p c).arrays F ∗ unscopedRest (cfgs p).spec c (fun b => Wv (Proc.devRef .tc b)))
      ⊢ wp frame (wpE 𝔻 𝕍 (c.tc : Thread nD τ) none) Set.univ (chain (opss.map StableHlo.seq)) Q' := by
  classical
  -- window `w₀`'s array, whole at the full share, out of the windows' arrays
  have hA : (dats p c).arrays F
      = iprop((((c.tc : Thread nD τ).loc (arrRef (cfgs p).spec w₀)) ↦{fullShare} F w₀)
          ∗ bigSep (Finset.univ.erase w₀) fun w : Fin (cfgs p).W =>
              ((cfgs p).win w).arr.view.loc (c.tc : Thread nD τ) ↦[((cfgs p).win w).arr.view.set]{(dats p c).share w} F w) := by
    unfold Dat.arrays
    rw [bigSep_erase (Finset.mem_univ w₀)]
    congr 1
    rw [harr₀.set_eq_univ, hshare₀]
  have hkeep' : StableHlo.after opss.flatten Wv (Proc.devRef .tc (arrRef (cfgs p).spec w₀)) = F w₀ := by
    rw [StableHlo.after_of_forall_not_mem _ _ fun op hop => ?_, hW₀]
    obtain ⟨ops, hops, hop⟩ := List.mem_flatten.mp hop
    exact hkeep ops hops op hop
  rw [hA, ← List.append_nil (opss.map StableHlo.seq)]
  iintro ⟨Hk, Hb, ⟨H0, Hothers⟩, Hrest⟩
  iapply (wp_seqs_then (fun q => Cfg.toPCfg (Val := Val) (cfgs q)) defs₀ 𝒱₀ c (tailSet sig (cfgs p).spec w₀) [] opss hsub hfresh Wv) $$ [Hb H0 Hrest]
  · rw [held_tailSet, hW₀]
    isplitl [Hb]; · iexact Hb
    isplitl [H0]; · iexact H0
    iexact Hrest
  iintro Hb
  rw [chain_nil, wp_pure, held_tailSet, hkeep']
  imodintro
  iapply Hk
  icases Hb with ⟨-, H0, Hr⟩
  isplitl [H0 Hothers]
  · isplitl [H0]; · iexact H0
    iexact Hothers
  iexact Hr

variable (hinj : Function.Injective (cellOf (nD := nD) (τ := τ) cfgs)) (hw : WinFacts₀ (cfgs p).spec)

include hinj hw in
/-- THE FRAME RUN when input windows share an array and @main continues after the region with the host lines `opss`
    (`hmain`).  `hsplit` deals the buffers behind the windows' arrays, each whole at the full share at the region-entry
    contents `V`, into the proof data's arrays at entry; the body's invariant is the scoped rest (`hΦ`); the lines touch
    window `w₀`'s array — an output's, held at the full share — and the bypassing buffers only (`hsub`), not writing the
    array (`hkeep`).  `Wv c` is the buffers' contents at the region's exit where the lines look: window `w₀`'s array at
    its final contents (`hW₀`), a bypassing buffer at its entry contents (`hWr`).  Every window's array ends at
    `Dat.arrAt w N`, every bypassing buffer at the lines' result from `Wv c`. -/
theorem θ_run_frame_shared_tail
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c)
    (w₀ : Fin (cfgs p).W) (hshare₀ : ∀ c, (dats p c).share w₀ = fullShare)
    (Wv : Dev nD → Valuation τ sig Val)
    (hW₀ : ∀ c, Wv c (Proc.devRef .tc (arrRef (cfgs p).spec w₀)) = (dats p c).arrAt w₀ (cfgs p).N)
    (hWr : ∀ c, ∀ b ∈ restRefs sig (cfgs p).spec, Wv c (Proc.devRef .tc b) = V c b)
    (hsub : ∀ ops ∈ opss, ∀ op ∈ ops, op.bufs ⊆ tailSet sig (cfgs p).spec w₀)
    (hfresh : ∀ ops ∈ opss, ∀ op ∈ ops, op.fresh = ∅)
    (hkeep : ∀ ops ∈ opss, ∀ op ∈ ops, Proc.devRef .tc (arrRef (cfgs p).spec w₀) ∉ op.writes) :
    θ_run 𝔻 (onTc main) (s₀ m g)
      (fun r => ∀ c : Dev nD, (∀ w, r.2.mem (((cfgs p).spec w).arr.view.loc (c.tc : Thread nD τ)) = (dats p c).arrAt w (cfgs p).N)
        ∧ ∀ b ∈ restRefs sig (cfgs p).spec, r.2.mem ((c.tc : Thread nD τ).loc b) = StableHlo.after opss.flatten (Wv c) (Proc.devRef .tc b)) := by
  classical
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c
      (fun b => StableHlo.after opss.flatten (Wv c) (Proc.devRef .tc b)))
    (hX := fun c => by
      rw [unscopedRestP_none]
      iintro H
      isplitr; · iempintro
      iexact H)
    (hin := fun c => by
      rw [hΦ]
      iintro ⟨-, -, H⟩
      iexact H)
    (hout := fun c => by
      rw [hΦ]
      iintro H
      isplitr; · iempintro
      iexact H)
    (htail := fun c Q' => by
      have hZ : unscopedRest (Ix := Unit) (Name := ℕ) (U := UR sig nD τ) (Lvl := ℕ) (cfgs p).spec c (V c)
          = unscopedRest (Ix := Unit) (Name := ℕ) (U := UR sig nD τ) (Lvl := ℕ) (cfgs p).spec c (fun b => Wv c (Proc.devRef .tc b)) := by
        unfold unscopedRest
        exact bigSep_congr fun b hb => by dsimp only; rw [hWr c b hb]
      rw [hZ]
      exact tail_lines cfgs dats p defs₀ 𝒱₀ c w₀ (hshare₀ c) (harr w₀) (fun w => (dats p c).arrAt w (cfgs p).N) (Wv c) (hW₀ c)
        opss hsub hfresh hkeep Q')
    (QY := fun c s => ∀ b ∈ restRefs sig (cfgs p).spec, s.mem ((c.tc : Thread nD τ).loc b) = StableHlo.after opss.flatten (Wv c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Wv c) (Proc.devRef .tc b)) s')
      isplitl [HU] <;> iassumption)
    (hQ := fun s h c => ⟨(h c).1, (h c).2.2⟩)

end SharedArrayFrameTail

end
-- ==== Proof.LibSharedFrameTrack.lean ====
/-
  The frame run for a one-region pipeline whose input windows may read one and the same array, with host lines after
  the region, when the kernel CARRIES a scratch buffer from one grid point to the next.

  The body's invariant before point `t` is then not the same at every point: before the first point the scratch holds
  anything, afterwards it holds what the point before left in it.  All the launch needs of the invariant is that the
  core's scoped buffers (no staging buffer among them), each whole at some contents, give the invariant before the
  first point (`hin`), and that the invariant after the last point gives them back (`hout`).  Everything else is as
  in the run with a point-independent invariant: the shared array's full share is dealt among its windows at entry
  (`hsplit`), the lines after the region touch one output window's array and the bypassing buffers only.

  Program-free: nothing here names a kernel.
-/
import proofs.«145332_g35888746725567_cont_8to1_b_717_11_alg».proof.Proof.LibSharedFrameTail

noncomputable section

namespace SharedArrayFrameTrack

open Idealize.ShloMosaic Idealize.ShloMosaic.Pipeline
open Idealize.SL
open Idealize.SL.BI (sProp bigSep bigSep_map bigSep_insert bigSep_erase bigSep_congr)
open scoped Idealize.SL.BI
open Idealize.SL.BI.BIBase Idealize.SL.BI.Laws Idealize.SL.Sem Idealize.SL.ProofMode
open Idealize.SL.RA
open Idealize.ShloMosaic.Rounds
open TcCoe
open SharedArrayFrameTail (tailSet tail_lines)

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "𝔻" => Pipeline.defs (fun q => Cfg.toPCfg (Val := Val) (cfgs q)) defs₀
local notation "𝕍" => Variants.lift 𝒱₀

variable (hinj : Function.Injective (cellOf (nD := nD) (τ := τ) cfgs)) (hw : WinFacts₀ (cfgs p).spec)

include hinj hw in
/-- THE FRAME RUN with a point-dependent invariant: input windows may share an array (`hsplit` deals its share), @main
    continues after the region with the host lines `opss`, and the body's invariant `Φ t` is entered from the scoped
    rest (`hin`) and returns it after the last point (`hout`).  Every window's array ends at `Dat.arrAt w N`, every
    bypassing buffer at the lines' result from `Wv c`. -/
theorem θ_run_frame_shared_tail_track
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (opss : List (List (HloOp τ sig Val)))
    (hmain : HMainK (Ix := Unit) (Name := ℕ) (U := UR sig nD τ) (Lvl := ℕ) cfgs p defs₀ 𝒱₀ m main V
      (fun _ => chain (opss.map StableHlo.seq)))
    (hsplit : ∀ c, (arrBufs (cfgs p).spec c (V c) : sProp 𝕄) ⊢ (dats p c).arrays ((dats p c).arrAt · 0))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N) ⊢ scopedRest (Ix := Unit) (Name := ℕ) (U := UR sig nD τ) (Lvl := ℕ) (Val := Val) (cfgs p).spec c)
    (w₀ : Fin (cfgs p).W) (hshare₀ : ∀ c, (dats p c).share w₀ = fullShare)
    (Wv : Dev nD → Valuation τ sig Val)
    (hW₀ : ∀ c, Wv c (Proc.devRef .tc (arrRef (cfgs p).spec w₀)) = (dats p c).arrAt w₀ (cfgs p).N)
    (hWr : ∀ c, ∀ b ∈ restRefs sig (cfgs p).spec, Wv c (Proc.devRef .tc b) = V c b)
    (hsub : ∀ ops ∈ opss, ∀ op ∈ ops, op.bufs ⊆ tailSet sig (cfgs p).spec w₀)
    (hfresh : ∀ ops ∈ opss, ∀ op ∈ ops, op.fresh = ∅)
    (hkeep : ∀ ops ∈ opss, ∀ op ∈ ops, Proc.devRef .tc (arrRef (cfgs p).spec w₀) ∉ op.writes) :
    θ_run 𝔻 (onTc main) (s₀ m g)
      (fun r => ∀ c : Dev nD, (∀ w, r.2.mem (((cfgs p).spec w).arr.view.loc (c.tc : Thread nD τ)) = (dats p c).arrAt w (cfgs p).N)
        ∧ ∀ b ∈ restRefs sig (cfgs p).spec, r.2.mem ((c.tc : Thread nD τ).loc b) = StableHlo.after opss.flatten (Wv c) (Proc.devRef .tc b)) := by
  classical
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := V) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (V c))
    (Z' := fun c => unscopedRest (Ix := Unit) (Name := ℕ) (U := UR sig nD τ) (Lvl := ℕ) (cfgs p).spec c
      (fun b => StableHlo.after opss.flatten (Wv c) (Proc.devRef .tc b)))
    (hX := fun c => by
      rw [unscopedRestP_none]
      iintro H
      isplitr; · iempintro
      iexact H)
    (hin := fun c => by
      iintro ⟨-, -, H⟩
      iapply (hin c)
      iexact H)
    (hout := fun c => by
      iintro H
      isplitr; · iempintro
      iapply (hout c)
      iexact H)
    (htail := fun c Q' => by
      have hZ : unscopedRest (Ix := Unit) (Name := ℕ) (U := UR sig nD τ) (Lvl := ℕ) (cfgs p).spec c (V c)
          = unscopedRest (Ix := Unit) (Name := ℕ) (U := UR sig nD τ) (Lvl := ℕ) (cfgs p).spec c (fun b => Wv c (Proc.devRef .tc b)) := by
        unfold unscopedRest
        exact bigSep_congr fun b hb => by dsimp only; rw [hWr c b hb]
      rw [hZ]
      exact tail_lines cfgs dats p defs₀ 𝒱₀ c w₀ (hshare₀ c) (harr w₀) (fun w => (dats p c).arrAt w (cfgs p).N) (Wv c) (hW₀ c)
        opss hsub hfresh hkeep Q')
    (QY := fun c s => ∀ b ∈ restRefs sig (cfgs p).spec, s.mem ((c.tc : Thread nD τ).loc b) = StableHlo.after opss.flatten (Wv c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Wv c) (Proc.devRef .tc b)) s')
      isplitl [HU] <;> iassumption)
    (hQ := fun s h c => ⟨(h c).1, (h c).2.2⟩)

end SharedArrayFrameTrack

end
-- ==== Proof.BitsKit.lean ====
/-
  What the proofs about this kernel's run share.  The kernel is one pipelined call on a grid of 25 points followed by
  one host reshape.  Its five windows: the top and the bottom row block of the SAME square matrix (windows 0 and 1,
  200 rows each, block `t` and block `t + 25`), the whole feature matrix and the whole weight matrix (windows 2
  and 3, fetched once), and the output block of two slabs of 200 rows (window 4).  A scratch of the feature matrix's
  shape is carried from point to point: the first point fills it, every point reads it.

  Here: the contents of the buffers when the region is entered, @main as the region followed by the reshape, what
  the reshape touches, each window's block read off its array, that an input's staging buffer holds its block at
  every point, and the one branch condition of the body (taken exactly at the first point).
-/
import proofs.«145332_g35888746725567_cont_8to1_b_717_11_alg».proof.Proof.Gen.Kernel.Launch
import proofs.«145332_g35888746725567_cont_8to1_b_717_11_alg».proof.Proof.Gen.Kernel.Skeleton
import proofs.«145332_g35888746725567_cont_8to1_b_717_11_alg».proof.Proof.Gen.Kernel.Points
import proofs.«145332_g35888746725567_cont_8to1_b_717_11_alg».proof.Proof.LibSharedFrameTrack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line precedes it, so the initial memory. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The reshape touches the output window's array (its operand) and the result buffer, which bypasses the region. -/
theorem tail_sub : ∀ ops ∈ ([hostOps1] : List (List (HloOp τ sig (Elt F)))), ∀ op ∈ ops,
    op.bufs ⊆ tailSet sig spec0 (4 : Fin 5) := by
  intro ops hops op hop
  simp only [List.mem_cons, List.mem_nil_iff, or_false] at hops
  subst hops
  simp only [hostOps1, List.mem_cons, List.mem_nil_iff, or_false] at hop
  subst hop
  rw [StableHlo.reshape_bufs]
  intro b hb
  simp only [Finset.mem_insert, Finset.mem_singleton] at hb
  unfold tailSet
  rcases hb with rfl | rfl
  · exact Finset.mem_insert_self _ _
  · exact Finset.mem_insert_of_mem (Finset.mem_map.mpr ⟨main_v1, Pipeline.mem_restRefs_of main_v1 rfl (by decide), rfl⟩)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it does not write its operand. -/
theorem tail_keeps : ∀ ops ∈ ([hostOps1] : List (List (HloOp τ sig (Elt F)))), ∀ op ∈ ops,
    Proc.devRef .tc (Pipeline.arrRef spec0 (4 : Fin 5)) ∉ op.writes := by
  intro ops hops op hop
  simp only [List.mem_cons, List.mem_nil_iff, or_false] at hops
  subst hops
  simp only [hostOps1, List.mem_cons, List.mem_nil_iff, or_false] at hop
  subst hop
  simp only [StableHlo.reshape_writes, Finset.mem_singleton]
  exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (an
    unfetched window's block index has not moved), for any proof data whose array is the entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition, from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x200x128 .f32 := win0_4.stage (cfg0.slots t 4)
abbrev hs0_4 (t : Fin cfg0.N) : (ms0_4 t).IsWhole := hstage0_4 ((cfg0.slots t 4).cast nbuf0_4)
/-- The carried scratch: a whole scoped buffer of the kernel's own. -/
abbrev scM : Memref sig .tc .vmem S10000x128 .f32 := Memref.whole cc0_scratch0
/-- One staging buffer of the output window, through which its contents are stated (the choice does not matter). -/
abbrev VO4 : View sig .tc .vmem S2x200x128 .f32 := (Memref.whole cc0_stg4_0 : Memref sig .tc .vmem S2x200x128 .f32).view
/-- The scratch as a view. -/
abbrev VS : View sig .tc .vmem S10000x128 .f32 := scM.view

/-- The core's scoped buffers that are no staging buffer are the scratch alone, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.BitsRunA.lean ====
/-
  The body's run at the FIRST grid point (the branch taken).  On whole staging buffers — the four inputs' at given
  contents, the output's and the scratch at anything — the body runs to the end and leaves the inputs as they were,
  the scratch with one store written over it (the product of the feature block and the weight block), and the output
  buffer with two stores written over it (slab 0 and slab 1).  The stored pieces are found by running the body.
-/
import proofs.«145332_g35888746725567_cont_8to1_b_717_11_alg».proof.Proof.BitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's buffer (`L4`) and in the scratch (`LS`) at the first point,
    with the run that leaves them. -/
noncomputable def kernelRun_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) :
    Σ' (L4 : List (View.Piece (Elt F) S2x200x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

end Cert.Kernel.Hand

end
-- ==== Proof.BitsRunB.lean ====
/-
  The body's run at a LATER grid point (the branch not taken).  On whole staging buffers — the four inputs' and the
  scratch at given contents, the output's at anything — the body runs to the end and leaves the inputs and the
  scratch as they were (the scratch is only read) and the output buffer with two stores written over it.
-/
import proofs.«145332_g35888746725567_cont_8to1_b_717_11_alg».proof.Proof.BitsRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's buffer at a later point, with the run that leaves them. -/
noncomputable def kernelRun_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) :
    { L4 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H6

end Cert.Kernel.Hand

end
-- ==== Proof.BitsFrame.lean ====
/-
  The run of the whole program with every buffer's final contents named.

  What each grid point leaves: the first point fills the scratch with the product of the feature matrix and the
  weight matrix (both windows are the whole matrices) and every later point finds it there, so after EVERY point the
  output block holds two slabs, the top row block times the scratch and the bottom row block times the scratch.  The
  invariant between points: before the first point the scratch holds anything, afterwards the product.

  The two row-block windows read ONE matrix: its buffer's full share is dealt in two halves at entry, one per
  window; the other arrays are held whole.  The reshape after the region reads the output array and writes the
  result buffer.
-/
import proofs.«145332_g35888746725567_cont_8to1_b_717_11_alg».proof.Proof.BitsRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the found pieces cover and leave -/

/-- The two slab stores of the first point tile the output block. -/
theorem cover_A_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) (y : S2x200x128.Idx) :
    ∃ pc ∈ (kernelRun_A c i arg1 harg1 arg2 harg2 arg3 harg3 arg4 harg4 arg5 harg5 arg6 harg6 hc0 x0 x1 x2 x3).1, y ∈ pc.1.set :=
  View.cover_of_tiledL (kernelRun_A c i arg1 harg1 arg2 harg2 arg3 harg3 arg4 harg4 arg5 harg5 arg6 harg6 hc0 x0 x1 x2 x3).1 S1x200x128.size (by sl_kernel_rfl) y

/-- What the first point leaves in the output's staging buffer: its pieces read back. -/
def out_A_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) : Vec F S2x200x128 .f32 :=
  VO4.read (Elt F) (VO4.writes (Elt F) VO4.junk (kernelRun_A c i arg1 harg1 arg2 harg2 arg3 harg3 arg4 harg4 arg5 harg5 arg6 harg6 hc0 x0 x1 x2 x3).1)

/-- The first point's one store into the scratch covers it. -/
theorem scover_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) (y : S10000x128.Idx) :
    ∃ pc ∈ (kernelRun_A c i arg1 harg1 arg2 harg2 arg3 harg3 arg4 harg4 arg5 harg5 arg6 harg6 hc0 x0 x1 x2 x3).2.1, y ∈ pc.1.set :=
  View.cover_of_tiledL (kernelRun_A c i arg1 harg1 arg2 harg2 arg3 harg3 arg4 harg4 arg5 harg5 arg6 harg6 hc0 x0 x1 x2 x3).2.1 S10000x128.size (by sl_kernel_rfl) y

/-- What the first point leaves in the scratch: its piece read back. -/
def sout_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) : Vec F S10000x128 .f32 :=
  VS.read (Elt F) (VS.writes (Elt F) VS.junk (kernelRun_A c i arg1 harg1 arg2 harg2 arg3 harg3 arg4 harg4 arg5 harg5 arg6 harg6 hc0 x0 x1 x2 x3).2.1)

/-- The two slab stores of a later point tile the output block. -/
theorem cover_B_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) (y : S2x200x128.Idx) :
    ∃ pc ∈ (kernelRun_B c i arg1 harg1 arg2 harg2 arg3 harg3 arg4 harg4 arg5 harg5 arg6 harg6 hc0 x0 x1 x2 x3 xs).1, y ∈ pc.1.set :=
  View.cover_of_tiledL (kernelRun_B c i arg1 harg1 arg2 harg2 arg3 harg3 arg4 harg4 arg5 harg5 arg6 harg6 hc0 x0 x1 x2 x3 xs).1 S1x200x128.size (by sl_kernel_rfl) y

/-- What a later point leaves in the output's staging buffer: its pieces read back. -/
def out_B_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) : Vec F S2x200x128 .f32 :=
  VO4.read (Elt F) (VO4.writes (Elt F) VO4.junk (kernelRun_B c i arg1 harg1 arg2 harg2 arg3 harg3 arg4 harg4 arg5 harg5 arg6 harg6 hc0 x0 x1 x2 x3 xs).1)

/-! ## Point by point -/

/-- The first grid point. -/
def t0 : Fin cfg0.N := ⟨0, Nat.lt_of_lt_of_eq (by decide : 0 < 25) (show cfg0.N = 25 from N_0).symm⟩

/-- What the scratch holds after the first point, and so after every point: the first point's store. -/
def fe (c : Dev nD) : Vec F S10000x128 .f32 :=
  sout_A c (grid0.coords t0) (ms0_0 t0) (hs0_0 t0) (ms0_1 t0) (hs0_1 t0) (ms0_2 t0) (hs0_2 t0) (ms0_3 t0) (hs0_3 t0) (ms0_4 t0) (hs0_4 t0) scM (Memref.isWhole_whole _)
    ((hcond0_0 t0).mpr rfl) (iblk m c 0 t0) (iblk m c 1 t0) (iblk m c 2 t0) (iblk m c 3 t0)

/-- What the output's staging buffer holds after the body at point `t`. -/
def outAt (c : Dev nD) (t : Fin cfg0.N) : Vec F S2x200x128 .f32 :=
  if h : t.val = 0 then
    out_A_4 c (grid0.coords t) (ms0_0 t) (hs0_0 t) (ms0_1 t) (hs0_1 t) (ms0_2 t) (hs0_2 t) (ms0_3 t) (hs0_3 t) (ms0_4 t) (hs0_4 t) scM (Memref.isWhole_whole _)
      ((hcond0_0 t).mpr h) (iblk m c 0 t) (iblk m c 1 t) (iblk m c 2 t) (iblk m c 3 t)
  else
    out_B_4 c (grid0.coords t) (ms0_0 t) (hs0_0 t) (ms0_1 t) (hs0_1 t) (ms0_2 t) (hs0_2 t) (ms0_3 t) (hs0_3 t) (ms0_4 t) (hs0_4 t) scM (Memref.isWhole_whole _)
      (fun hc => h ((hcond0_0 t).mp hc)) (iblk m c 0 t) (iblk m c 1 t) (iblk m c 2 t) (iblk m c 3 t) (fe m c)

theorem outAt_A (c : Dev nD) (t : Fin cfg0.N) (h : t.val = 0) :
    outAt m c t = out_A_4 c (grid0.coords t) (ms0_0 t) (hs0_0 t) (ms0_1 t) (hs0_1 t) (ms0_2 t) (hs0_2 t) (ms0_3 t) (hs0_3 t) (ms0_4 t) (hs0_4 t) scM (Memref.isWhole_whole _)
      ((hcond0_0 t).mpr h) (iblk m c 0 t) (iblk m c 1 t) (iblk m c 2 t) (iblk m c 3 t) := dif_pos h

theorem outAt_B (c : Dev nD) (t : Fin cfg0.N) (h : ¬t.val = 0) :
    outAt m c t = out_B_4 c (grid0.coords t) (ms0_0 t) (hs0_0 t) (ms0_1 t) (hs0_1 t) (ms0_2 t) (hs0_2 t) (ms0_3 t) (hs0_3 t) (ms0_4 t) (hs0_4 t) scM (Memref.isWhole_whole _)
      (fun hc => h ((hcond0_0 t).mp hc)) (iblk m c 0 t) (iblk m c 1 t) (iblk m c 2 t) (iblk m c 3 t) (fe m c) := dif_neg h

/-- The invariant before position `n`: before the first point the core's scoped rest (the scratch at anything),
    afterwards the scratch at the first point's store. -/
def PhiS (c : Dev nD) : (n : ℕ) → sProp 𝕄
  | 0 => Pipeline.scopedRest (Ix := Unit) (Name := ℕ) (U := UR sig nD τ) (Lvl := ℕ) (Val := Elt F) spec0 c
  | _ + 1 => owns (c : Thread nD τ) scM fullShare (fe m c)

theorem PhiS_pos (c : Dev nD) (n : ℕ) (hz : n ≠ 0) : PhiS m c n = owns (c : Thread nD τ) scM fullShare (fe m c) := by
  cases n with
  | zero => exact absurd rfl hz
  | succ n => rfl

/-! ## The proof data -/

/-- The proof data of the pipeline on core `c`: the arrays as the region finds them; after the body each input's
    buffer at its block and the output's at `outAt`; the invariant `PhiS`; nothing owed; the shared matrix's share in
    two halves, one per row-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4800000 in
/-- The body at any point.  The inputs' buffers hold their blocks.  At the first point the scratch is handed at
    anything and taken back at its store; at a later point it is handed at the first point's store and taken back
    untouched.  The output's buffer is taken back with the point's two slabs written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = owns (c : Thread nD τ) scM fullShare (fe m c) from rfl]
  rw [show (dats m 0 c).Φ t.castSucc = PhiS m c t.val from rfl]
  rw [after0_0, after0_1, after0_2, after0_3, after0_4]
  by_cases h0 : t.val = 0
  · obtain rfl : t = t0 := Fin.ext h0
    rw [outAt_A m c t0 h0]
    unfold out_A_4 fe sout_A
    rw [show PhiS m c (t0 : Fin cfg0.N).val = Pipeline.scopedRest (Ix := Unit) (Name := ℕ) (U := UR sig nD τ) (Lvl := ℕ) (Val := Elt F) spec0 c from rfl, scoped_eq]
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0_0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A_4 c _ _ _ _ _ _ _ _ _ _ _ _ _ _ _ _ _ _)
  · rw [outAt_B m c t h0]
    unfold out_B_4
    rw [PhiS_pos m c _ h0]
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hc => h0 ((hcond0_0 t).mp hc)) (iblk m c 0 t) (iblk m c 1 t) (iblk m c 2 t) (iblk m c 3 t) (fe m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entry and exit of the region -/

/-- A window's array is a whole buffer: its elements are all of them. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- The shared matrix's full share is dealt in two halves, one per row-block window; the other arrays go whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_arg0, main_arg2, main_v0] (by decide) (by decide), bigSep_W0]
  rw [arr_pt, arr_pt, arr_pt, arr_pt, arr_pt]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  show iprop((((c : Thread nD τ).loc main_arg1) ↦{fullShare} V m c main_arg1) ∗ (((c : Thread nD τ).loc main_arg0) ↦{fullShare} V m c main_arg0)
      ∗ (((c : Thread nD τ).loc main_arg2) ↦{fullShare} V m c main_arg2) ∗ (((c : Thread nD τ).loc main_v0) ↦{fullShare} V m c main_v0)) ⊢ _
  iintro ⟨H1, H0, H2, Hv⟩
  ihave H1' := (pointsTo_share (PosShare.mem_left_op_right fullShare)).1 $$ H1
  icases H1' with ⟨Hl, Hr⟩
  isplitl [Hl]; · iexact Hl
  isplitl [Hr]; · iexact Hr
  isplitl [H0]; · iexact H0
  isplitl [H2]; · iexact H2
  iexact Hv

theorem hin (c : Dev nD) : Pipeline.scopedRest (Ix := Unit) (Name := ℕ) (U := UR sig nD τ) (Lvl := ℕ) (Val := Elt F) spec0 c ⊢ (dats m 0 c).Φ 0 :=
  Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c cfg0.N from rfl, PhiS_pos m c _ (by rw [show cfg0.N = 25 from N_0]; decide), scoped_eq]
  iintro H; iexists _; iexact H

end Cert.Kernel.Hand

end
-- ==== Proof.BitsRun.lean ====
/-
  The frame run and the frame.  Every window's array ends at what the proof data computes from the write-backs, the
  result buffer at the reshape of the output array's final contents; the three argument arrays, which are input
  windows' arrays, end as they began.
-/
import proofs.«145332_g35888746725567_cont_8to1_b_717_11_alg».proof.Proof.BitsFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents where the reshape looks: the output array at its final contents, every other buffer at its
    entry contents. -/
def Wv (c : Dev nD) : Valuation τ sig (Elt F) :=
  Function.update (V0 m c) (Proc.devRef .tc main_v0) ((dats m 0 c).arrAt 4 cfg0.N)

theorem Wv_out (c : Dev nD) : Wv m c (Proc.devRef .tc (Pipeline.arrRef spec0 (4 : Fin 5))) = (dats m 0 c).arrAt 4 cfg0.N :=
  Function.update_self ..

theorem Wv_rest (c : Dev nD) (b : Ref sig .tc) (hb : b ∈ Pipeline.restRefs sig spec0) : Wv m c (Proc.devRef .tc b) = V m c b := by
  have hne : b ≠ main_v0 := fun e => (Finset.mem_sdiff.mp hb).2 (Finset.mem_image.mpr ⟨(4 : Fin 5), Finset.mem_univ _, e.symm⟩)
  exact Function.update_of_ne (StableHlo.devRef_ne_of_ne hne) ..

set_option backward.isDefEq.respectTransparency.types false in
/-- Every weakly fair execution of @main terminates, nothing faulting, with every window's array at the proof data's
    final contents and the result buffer at the reshape of the output array's. -/
theorem run_main : θ_run defs (onTc (τ := τ) (main (F := F))) (s₀ m ρ)
    (fun r => ∀ c : Dev nD, (∀ w : Fin cfg0.W, r.2.mem (((cfgs 0).spec w).arr.view.loc (c.tc : Thread nD τ)) = (dats m 0 c).arrAt w cfg0.N)
      ∧ ∀ b ∈ Pipeline.restRefs sig (cfgs 0).spec, r.2.mem ((c.tc : Thread nD τ).loc b)
          = StableHlo.after ([hostOps1] : List (List (HloOp τ sig (Elt F)))).flatten (Wv m c) (Proc.devRef .tc b)) :=
  SharedArrayFrameTrack.θ_run_frame_shared_tail_track cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (opss := [hostOps1]) (hmain := hmain m Variants.none)
    (hsplit := hsplit m) (hin := hin m) (hout := hout m) (w₀ := (4 : Fin 5)) (hshare₀ := fun _ => rfl)
    (Wv := Wv m) (hW₀ := Wv_out m) (hWr := Wv_rest m)
    (hsub := tail_sub) (hfresh := tail_fresh) (hkeep := tail_keeps)

/-- An input window's array ends as the region found it: nothing is written back into it. -/
theorem arr_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: @main terminates, nothing faulting, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (arr_in m c 2 rfl), ((h c).1 0).trans (arr_in m c 0 rfl), ((h c).1 3).trans (arr_in m c 3 rfl)⟩) (run_main m ρ)

end Cert.Kernel.Hand

end
-- ==== Proof.IdealKit.lean ====
/-
  What the proofs about this kernel's run share.  The kernel is one pipelined call on a grid of 25 points followed by
  one host reshape.  Its five windows: the top and the bottom row block of the SAME square matrix (windows 0 and 1,
  200 rows each, block `t` and block `t + 25`), the whole feature matrix and the whole weight matrix (windows 2
  and 3, fetched once), and the output block of two slabs of 200 rows (window 4).  A scratch of the feature matrix's
  shape is carried from point to point: the first point fills it, every point reads it.

  Here: the contents of the buffers when the region is entered, @main as the region followed by the reshape, what
  the reshape touches, each window's block read off its array, that an input's staging buffer holds its block at
  every point, and the one branch condition of the body (taken exactly at the first point).
-/
import proofs.«145332_g35888746725567_cont_8to1_b_717_11_alg».proof.Proof.Gen.KernelIdeal.Launch
import proofs.«145332_g35888746725567_cont_8to1_b_717_11_alg».proof.Proof.Gen.KernelIdeal.Skeleton
import proofs.«145332_g35888746725567_cont_8to1_b_717_11_alg».proof.Proof.Gen.KernelIdeal.Points
import proofs.«145332_g35888746725567_cont_8to1_b_717_11_alg».proof.Proof.LibSharedFrameTrack
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line precedes it, so the initial memory. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The reshape touches the output window's array (its operand) and the result buffer, which bypasses the region. -/
theorem tail_sub : ∀ ops ∈ ([hostOps1] : List (List (HloOp τ sig (Elt F)))), ∀ op ∈ ops,
    op.bufs ⊆ tailSet sig spec0 (4 : Fin 5) := by
  intro ops hops op hop
  simp only [List.mem_cons, List.mem_nil_iff, or_false] at hops
  subst hops
  simp only [hostOps1, List.mem_cons, List.mem_nil_iff, or_false] at hop
  subst hop
  rw [StableHlo.reshape_bufs]
  intro b hb
  simp only [Finset.mem_insert, Finset.mem_singleton] at hb
  unfold tailSet
  rcases hb with rfl | rfl
  · exact Finset.mem_insert_self _ _
  · exact Finset.mem_insert_of_mem (Finset.mem_map.mpr ⟨main_v1, Pipeline.mem_restRefs_of main_v1 rfl (by decide), rfl⟩)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it does not write its operand. -/
theorem tail_keeps : ∀ ops ∈ ([hostOps1] : List (List (HloOp τ sig (Elt F)))), ∀ op ∈ ops,
    Proc.devRef .tc (Pipeline.arrRef spec0 (4 : Fin 5)) ∉ op.writes := by
  intro ops hops op hop
  simp only [List.mem_cons, List.mem_nil_iff, or_false] at hops
  subst hops
  simp only [hostOps1, List.mem_cons, List.mem_nil_iff, or_false] at hop
  subst hop
  simp only [StableHlo.reshape_writes, Finset.mem_singleton]
  exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (an
    unfetched window's block index has not moved), for any proof data whose array is the entry contents and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch condition, from the grid coordinate: "this is the first point". -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x200x128 .f32 := win0_4.stage (cfg0.slots t 4)
abbrev hs0_4 (t : Fin cfg0.N) : (ms0_4 t).IsWhole := hstage0_4 ((cfg0.slots t 4).cast nbuf0_4)
/-- The carried scratch: a whole scoped buffer of the kernel's own. -/
abbrev scM : Memref sig .tc .vmem S10000x128 .f32 := Memref.whole cc0_scratch0
/-- One staging buffer of the output window, through which its contents are stated (the choice does not matter). -/
abbrev VO4 : View sig .tc .vmem S2x200x128 .f32 := (Memref.whole cc0_stg4_0 : Memref sig .tc .vmem S2x200x128 .f32).view
/-- The scratch as a view. -/
abbrev VS : View sig .tc .vmem S10000x128 .f32 := scM.view

/-- The core's scoped buffers that are no staging buffer are the scratch alone, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.IdealRunA.lean ====
/-
  The body's run at the FIRST grid point (the branch taken).  On whole staging buffers — the four inputs' at given
  contents, the output's and the scratch at anything — the body runs to the end and leaves the inputs as they were,
  the scratch with one store written over it (the product of the feature block and the weight block), and the output
  buffer with two stores written over it (slab 0 and slab 1).  The stored pieces are found by running the body.
-/
import proofs.«145332_g35888746725567_cont_8to1_b_717_11_alg».proof.Proof.IdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's buffer (`L4`) and in the scratch (`LS`) at the first point,
    with the run that leaves them. -/
noncomputable def kernelRun_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) :
    Σ' (L4 : List (View.Piece (Elt F) S2x200x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
    obtain rfl := harg1.eq_unread hf0; obtain rfl := harg2.eq_unread hf1; obtain rfl := harg3.eq_unread hf2; obtain rfl := harg4.eq_unread hf3
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

end Cert.KernelIdeal.Hand

end
-- ==== Proof.IdealRunB.lean ====
/-
  The body's run at a LATER grid point (the branch not taken).  On whole staging buffers — the four inputs' and the
  scratch at given contents, the output's at anything — the body runs to the end and leaves the inputs and the
  scratch as they were (the scratch is only read) and the output buffer with two stores written over it.
-/
import proofs.«145332_g35888746725567_cont_8to1_b_717_11_alg».proof.Proof.IdealRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's buffer at a later point, with the run that leaves them. -/
noncomputable def kernelRun_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) :
    { L4 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ owns (c : Thread nD τ) arg6 fullShare xs) -∗ K ⟨⟩))
          ⊢ wp frame (wpE (defs₀ (F := F)) Variants.none c none) E (cc0__body i arg1 harg1 arg2 harg2 arg3 harg3 arg4 harg4 arg5 harg5 arg6 harg6) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf6
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact H6

end Cert.KernelIdeal.Hand

end
-- ==== Proof.IdealFrame.lean ====
/-
  The run of the whole program with every buffer's final contents named.

  What each grid point leaves: the first point fills the scratch with the product of the feature matrix and the
  weight matrix (both windows are the whole matrices) and every later point finds it there, so after EVERY point the
  output block holds two slabs, the top row block times the scratch and the bottom row block times the scratch.  The
  invariant between points: before the first point the scratch holds anything, afterwards the product.

  The two row-block windows read ONE matrix: its buffer's full share is dealt in two halves at entry, one per
  window; the other arrays are held whole.  The reshape after the region reads the output array and writes the
  result buffer.
-/
import proofs.«145332_g35888746725567_cont_8to1_b_717_11_alg».proof.Proof.IdealRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the found pieces cover and leave -/

/-- The two slab stores of the first point tile the output block. -/
theorem cover_A_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) (y : S2x200x128.Idx) :
    ∃ pc ∈ (kernelRun_A c i arg1 harg1 arg2 harg2 arg3 harg3 arg4 harg4 arg5 harg5 arg6 harg6 hc0 x0 x1 x2 x3).1, y ∈ pc.1.set :=
  View.cover_of_tiledL (kernelRun_A c i arg1 harg1 arg2 harg2 arg3 harg3 arg4 harg4 arg5 harg5 arg6 harg6 hc0 x0 x1 x2 x3).1 S1x200x128.size (by sl_kernel_rfl) y

/-- What the first point leaves in the output's staging buffer: its pieces read back. -/
def out_A_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) : Vec F S2x200x128 .f32 :=
  VO4.read (Elt F) (VO4.writes (Elt F) VO4.junk (kernelRun_A c i arg1 harg1 arg2 harg2 arg3 harg3 arg4 harg4 arg5 harg5 arg6 harg6 hc0 x0 x1 x2 x3).1)

/-- The first point's one store into the scratch covers it. -/
theorem scover_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) (y : S10000x128.Idx) :
    ∃ pc ∈ (kernelRun_A c i arg1 harg1 arg2 harg2 arg3 harg3 arg4 harg4 arg5 harg5 arg6 harg6 hc0 x0 x1 x2 x3).2.1, y ∈ pc.1.set :=
  View.cover_of_tiledL (kernelRun_A c i arg1 harg1 arg2 harg2 arg3 harg3 arg4 harg4 arg5 harg5 arg6 harg6 hc0 x0 x1 x2 x3).2.1 S10000x128.size (by sl_kernel_rfl) y

/-- What the first point leaves in the scratch: its piece read back. -/
def sout_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) : Vec F S10000x128 .f32 :=
  VS.read (Elt F) (VS.writes (Elt F) VS.junk (kernelRun_A c i arg1 harg1 arg2 harg2 arg3 harg3 arg4 harg4 arg5 harg5 arg6 harg6 hc0 x0 x1 x2 x3).2.1)

/-- The two slab stores of a later point tile the output block. -/
theorem cover_B_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) (y : S2x200x128.Idx) :
    ∃ pc ∈ (kernelRun_B c i arg1 harg1 arg2 harg2 arg3 harg3 arg4 harg4 arg5 harg5 arg6 harg6 hc0 x0 x1 x2 x3 xs).1, y ∈ pc.1.set :=
  View.cover_of_tiledL (kernelRun_B c i arg1 harg1 arg2 harg2 arg3 harg3 arg4 harg4 arg5 harg5 arg6 harg6 hc0 x0 x1 x2 x3 xs).1 S1x200x128.size (by sl_kernel_rfl) y

/-- What a later point leaves in the output's staging buffer: its pieces read back. -/
def out_B_4 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) : Vec F S2x200x128 .f32 :=
  VO4.read (Elt F) (VO4.writes (Elt F) VO4.junk (kernelRun_B c i arg1 harg1 arg2 harg2 arg3 harg3 arg4 harg4 arg5 harg5 arg6 harg6 hc0 x0 x1 x2 x3 xs).1)

/-! ## Point by point -/

/-- The first grid point. -/
def t0 : Fin cfg0.N := ⟨0, Nat.lt_of_lt_of_eq (by decide : 0 < 25) (show cfg0.N = 25 from N_0).symm⟩

/-- What the scratch holds after the first point, and so after every point: the first point's store. -/
def fe (c : Dev nD) : Vec F S10000x128 .f32 :=
  sout_A c (grid0.coords t0) (ms0_0 t0) (hs0_0 t0) (ms0_1 t0) (hs0_1 t0) (ms0_2 t0) (hs0_2 t0) (ms0_3 t0) (hs0_3 t0) (ms0_4 t0) (hs0_4 t0) scM (Memref.isWhole_whole _)
    ((hcond0_0 t0).mpr rfl) (iblk m c 0 t0) (iblk m c 1 t0) (iblk m c 2 t0) (iblk m c 3 t0)

/-- What the output's staging buffer holds after the body at point `t`. -/
def outAt (c : Dev nD) (t : Fin cfg0.N) : Vec F S2x200x128 .f32 :=
  if h : t.val = 0 then
    out_A_4 c (grid0.coords t) (ms0_0 t) (hs0_0 t) (ms0_1 t) (hs0_1 t) (ms0_2 t) (hs0_2 t) (ms0_3 t) (hs0_3 t) (ms0_4 t) (hs0_4 t) scM (Memref.isWhole_whole _)
      ((hcond0_0 t).mpr h) (iblk m c 0 t) (iblk m c 1 t) (iblk m c 2 t) (iblk m c 3 t)
  else
    out_B_4 c (grid0.coords t) (ms0_0 t) (hs0_0 t) (ms0_1 t) (hs0_1 t) (ms0_2 t) (hs0_2 t) (ms0_3 t) (hs0_3 t) (ms0_4 t) (hs0_4 t) scM (Memref.isWhole_whole _)
      (fun hc => h ((hcond0_0 t).mp hc)) (iblk m c 0 t) (iblk m c 1 t) (iblk m c 2 t) (iblk m c 3 t) (fe m c)

theorem outAt_A (c : Dev nD) (t : Fin cfg0.N) (h : t.val = 0) :
    outAt m c t = out_A_4 c (grid0.coords t) (ms0_0 t) (hs0_0 t) (ms0_1 t) (hs0_1 t) (ms0_2 t) (hs0_2 t) (ms0_3 t) (hs0_3 t) (ms0_4 t) (hs0_4 t) scM (Memref.isWhole_whole _)
      ((hcond0_0 t).mpr h) (iblk m c 0 t) (iblk m c 1 t) (iblk m c 2 t) (iblk m c 3 t) := dif_pos h

theorem outAt_B (c : Dev nD) (t : Fin cfg0.N) (h : ¬t.val = 0) :
    outAt m c t = out_B_4 c (grid0.coords t) (ms0_0 t) (hs0_0 t) (ms0_1 t) (hs0_1 t) (ms0_2 t) (hs0_2 t) (ms0_3 t) (hs0_3 t) (ms0_4 t) (hs0_4 t) scM (Memref.isWhole_whole _)
      (fun hc => h ((hcond0_0 t).mp hc)) (iblk m c 0 t) (iblk m c 1 t) (iblk m c 2 t) (iblk m c 3 t) (fe m c) := dif_neg h

/-- The invariant before position `n`: before the first point the core's scoped rest (the scratch at anything),
    afterwards the scratch at the first point's store. -/
def PhiS (c : Dev nD) : (n : ℕ) → sProp 𝕄
  | 0 => Pipeline.scopedRest (Ix := Unit) (Name := ℕ) (U := UR sig nD τ) (Lvl := ℕ) (Val := Elt F) spec0 c
  | _ + 1 => owns (c : Thread nD τ) scM fullShare (fe m c)

theorem PhiS_pos (c : Dev nD) (n : ℕ) (hz : n ≠ 0) : PhiS m c n = owns (c : Thread nD τ) scM fullShare (fe m c) := by
  cases n with
  | zero => exact absurd rfl hz
  | succ n => rfl

/-! ## The proof data -/

/-- The proof data of the pipeline on core `c`: the arrays as the region finds them; after the body each input's
    buffer at its block and the output's at `outAt`; the invariant `PhiS`; nothing owed; the shared matrix's share in
    two halves, one per row-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4800000 in
/-- The body at any point.  The inputs' buffers hold their blocks.  At the first point the scratch is handed at
    anything and taken back at its store; at a later point it is handed at the first point's store and taken back
    untouched.  The output's buffer is taken back with the point's two slabs written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = owns (c : Thread nD τ) scM fullShare (fe m c) from rfl]
  rw [show (dats m 0 c).Φ t.castSucc = PhiS m c t.val from rfl]
  rw [after0_0, after0_1, after0_2, after0_3, after0_4]
  by_cases h0 : t.val = 0
  · obtain rfl : t = t0 := Fin.ext h0
    rw [outAt_A m c t0 h0]
    unfold out_A_4 fe sout_A
    rw [show PhiS m c (t0 : Fin cfg0.N).val = Pipeline.scopedRest (Ix := Unit) (Name := ℕ) (U := UR sig nD τ) (Lvl := ℕ) (Val := Elt F) spec0 c from rfl, scoped_eq]
    iintro ⟨HS, Ho, ⟨%d0, H0⟩, ⟨%d1, H1⟩, ⟨%d2, H2⟩, ⟨%d3, H3⟩, ⟨%d4, H4⟩⟩
    iapply ((kernelRun_A c (grid0.coords t0) _ _ _ _ _ _ _ _ _ _ _ _ ((hcond0_0 t0).mpr h0) (iblk m c 0 t0) (iblk m c 1 t0) (iblk m c 2 t0) (iblk m c 3 t0)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS]
    · unfold owns; iexists _; isplitr
      swap; · iexact HS
      ipureintro; exact View.read_writes_of_cover _ _ _ _ _ (scover_A c _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_A_4 c _ _ _ _ _ _ _ _ _ _ _ _ _ _ _ _ _ _)
  · rw [outAt_B m c t h0]
    unfold out_B_4
    rw [PhiS_pos m c _ h0]
    iintro ⟨HS, Ho, ⟨%d0, H0⟩, ⟨%d1, H1⟩, ⟨%d2, H2⟩, ⟨%d3, H3⟩, ⟨%d4, H4⟩⟩
    iapply ((kernelRun_B c (grid0.coords t) _ _ _ _ _ _ _ _ _ _ _ _ (fun hc => h0 ((hcond0_0 t).mp hc)) (iblk m c 0 t) (iblk m c 1 t) (iblk m c 2 t) (iblk m c 3 t) (fe m c)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS]; · iexact HS
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entry and exit of the region -/

/-- A window's array is a whole buffer: its elements are all of them. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f) := by
  rw [(arr_whole0 w).set_eq_univ]

/-- The shared matrix's full share is dealt in two halves, one per row-block window; the other arrays go whole. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg1, main_arg0, main_arg2, main_v0] (by decide) (by decide), bigSep_W0]
  rw [arr_pt, arr_pt, arr_pt, arr_pt, arr_pt]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  show iprop((((c : Thread nD τ).loc main_arg1) ↦{fullShare} V m c main_arg1) ∗ (((c : Thread nD τ).loc main_arg0) ↦{fullShare} V m c main_arg0)
      ∗ (((c : Thread nD τ).loc main_arg2) ↦{fullShare} V m c main_arg2) ∗ (((c : Thread nD τ).loc main_v0) ↦{fullShare} V m c main_v0)) ⊢ _
  iintro ⟨H1, H0, H2, Hv⟩
  ihave H1' := (pointsTo_share (PosShare.mem_left_op_right fullShare)).1 $$ H1
  icases H1' with ⟨Hl, Hr⟩
  isplitl [Hl]; · iexact Hl
  isplitl [Hr]; · iexact Hr
  isplitl [H0]; · iexact H0
  isplitl [H2]; · iexact H2
  iexact Hv

theorem hin (c : Dev nD) : Pipeline.scopedRest (Ix := Unit) (Name := ℕ) (U := UR sig nD τ) (Lvl := ℕ) (Val := Elt F) spec0 c ⊢ (dats m 0 c).Φ 0 :=
  Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c cfg0.N from rfl, PhiS_pos m c _ (by rw [show cfg0.N = 25 from N_0]; decide), scoped_eq]
  iintro H; iexists _; iexact H

end Cert.KernelIdeal.Hand

end
-- ==== Proof.IdealRun.lean ====
/-
  The frame run and the frame.  Every window's array ends at what the proof data computes from the write-backs, the
  result buffer at the reshape of the output array's final contents; the three argument arrays, which are input
  windows' arrays, end as they began.
-/
import proofs.«145332_g35888746725567_cont_8to1_b_717_11_alg».proof.Proof.IdealFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents where the reshape looks: the output array at its final contents, every other buffer at its
    entry contents. -/
def Wv (c : Dev nD) : Valuation τ sig (Elt F) :=
  Function.update (V0 m c) (Proc.devRef .tc main_v0) ((dats m 0 c).arrAt 4 cfg0.N)

theorem Wv_out (c : Dev nD) : Wv m c (Proc.devRef .tc (Pipeline.arrRef spec0 (4 : Fin 5))) = (dats m 0 c).arrAt 4 cfg0.N :=
  Function.update_self ..

theorem Wv_rest (c : Dev nD) (b : Ref sig .tc) (hb : b ∈ Pipeline.restRefs sig spec0) : Wv m c (Proc.devRef .tc b) = V m c b := by
  have hne : b ≠ main_v0 := fun e => (Finset.mem_sdiff.mp hb).2 (Finset.mem_image.mpr ⟨(4 : Fin 5), Finset.mem_univ _, e.symm⟩)
  exact Function.update_of_ne (StableHlo.devRef_ne_of_ne hne) ..

set_option backward.isDefEq.respectTransparency.types false in
/-- Every weakly fair execution of @main terminates, nothing faulting, with every window's array at the proof data's
    final contents and the result buffer at the reshape of the output array's. -/
theorem run_main : θ_run defs (onTc (τ := τ) (main (F := F))) (s₀ m ρ)
    (fun r => ∀ c : Dev nD, (∀ w : Fin cfg0.W, r.2.mem (((cfgs 0).spec w).arr.view.loc (c.tc : Thread nD τ)) = (dats m 0 c).arrAt w cfg0.N)
      ∧ ∀ b ∈ Pipeline.restRefs sig (cfgs 0).spec, r.2.mem ((c.tc : Thread nD τ).loc b)
          = StableHlo.after ([hostOps1] : List (List (HloOp τ sig (Elt F)))).flatten (Wv m c) (Proc.devRef .tc b)) :=
  SharedArrayFrameTrack.θ_run_frame_shared_tail_track cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (opss := [hostOps1]) (hmain := hmain m Variants.none)
    (hsplit := hsplit m) (hin := hin m) (hout := hout m) (w₀ := (4 : Fin 5)) (hshare₀ := fun _ => rfl)
    (Wv := Wv m) (hW₀ := Wv_out m) (hWr := Wv_rest m)
    (hsub := tail_sub) (hfresh := tail_fresh) (hkeep := tail_keeps)

/-- An input window's array ends as the region found it: nothing is written back into it. -/
theorem arr_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- THE FRAME: @main terminates, nothing faulting, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 2).trans (arr_in m c 2 rfl), ((h c).1 0).trans (arr_in m c 0 rfl), ((h c).1 3).trans (arr_in m c 3 rfl)⟩) (run_main m ρ)

end Cert.KernelIdeal.Hand

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.IdealBlock.lean ====
/-
  What the body leaves, read back as values.  The output block after any point is two slabs: slab 0 is the top row
  block times the scratch, slab 1 the bottom row block times the scratch; the scratch after the first point is the
  feature block times the weight block.  Over the extended reals each product is a plain sum over the contracted axis.
-/
import proofs.«145332_g35888746725567_cont_8to1_b_717_11_alg».proof.Proof.IdealRun
import proofs.«145332_g35888746725567_cont_8to1_b_717_11_alg».proof.Proof.LibMatmul
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

variable {F : FTy → Type} [FloatOps F]

local notation "𝕄" => MT nD τ sig Unit (Elt F) ℕ (UR sig nD τ) ℕ

variable (m : (ℓ : Loc nD τ sig) → Buf (Elt F) ℓ) (ρ : Dev nD → PrngReg)

open scoped BigOperators
open Idealize.ShloMosaic.ValueIdx

theorem hz2 : (![0, 0] : Fin 2 → Nat) = fun _ => 0 := funext fun a => by fin_cases a <;> rfl

/-- The output block as a function of what the body loads: slab 1 stored last, slab 0 first. -/
def blockOf (x0 : Vec F S200x10000 .f32) (x1 : Vec F S200x10000 .f32) (xs : Vec F S10000x128 .f32) : Vec F S2x200x128 .f32 :=
  View.canon [⟨Rect.unit (s := S2x200x128) ![1, 0, 0] S1x200x128.size inb_S2x200x128_S1x200x128_1_0_0, k0_pay3 xs x1⟩,
    ⟨Rect.unit (s := S2x200x128) ![0, 0, 0] S1x200x128.size inb_S2x200x128_S1x200x128_0_0_0, k0_pay2 xs x0⟩]

/-- A later point leaves the two slabs over the scratch it was handed. -/
theorem out_B_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : ¬cond0_0 i)
    (x0 : Vec F S200x10000 .f32) (x1 : Vec F S200x10000 .f32) (x2 : Vec F S10000x128 .f32) (x3 : Vec F S128x128 .f32) (xs : Vec F S10000x128 .f32) :
    out_B_4 c i arg1 harg1 arg2 harg2 arg3 harg3 arg4 harg4 arg5 harg5 arg6 harg6 hc0 x0 x1 x2 x3 xs = blockOf x0 x1 xs := by
  unfold out_B_4
  rw [View.read_writes_eq_canon _ _ _ (cover_B_4 c i arg1 harg1 arg2 harg2 arg3 harg3 arg4 harg4 arg5 harg5 arg6 harg6 hc0 x0 x1 x2 x3 xs)]
  unfold kernelRun_B
  dsimp only
  simp only [View.readAt_eq_ld, harg1.read_unread, harg2.read_unread, harg6.read_unread,
    View.ld_unit_zero (S := S200x10000) hz2, View.ld_unit_zero (S := S10000x128) hz2]
  rfl

/-- The first point leaves in the scratch the feature block times the weight block. -/
theorem sout_A_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) :
    sout_A c i arg1 harg1 arg2 harg2 arg3 harg3 arg4 harg4 arg5 harg5 arg6 harg6 hc0 x0 x1 x2 x3 = k0_pay1 x2 x3 := by
  unfold sout_A
  rw [View.read_writes_eq_canon _ _ _ (scover_A c i arg1 harg1 arg2 harg2 arg3 harg3 arg4 harg4 arg5 harg5 arg6 harg6 hc0 x0 x1 x2 x3)]
  unfold kernelRun_A
  dsimp only
  sl_unfold_words
  rw [View.canon_unit_zero hz2]
  simp only [View.readAt_eq_ld, harg3.read_unread, harg4.read_unread,
    View.ld_unit_zero (S := S10000x128) hz2, View.ld_unit_zero (S := S128x128) hz2]

/-- The first point leaves the two slabs over the scratch it has just stored and read back. -/
theorem out_A_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S2x200x128 .f32) (harg5 : arg5.IsWhole) (arg6 : Memref sig .tc .vmem S10000x128 .f32) (harg6 : arg6.IsWhole) (hc0 : cond0_0 i)
    (x0 : Vec F S200x10000 .f32) (x1 : Vec F S200x10000 .f32) (x2 : Vec F S10000x128 .f32) (x3 : Vec F S128x128 .f32) :
    out_A_4 c i arg1 harg1 arg2 harg2 arg3 harg3 arg4 harg4 arg5 harg5 arg6 harg6 hc0 x0 x1 x2 x3 = blockOf x0 x1 (k0_pay1 x2 x3) := by
  unfold out_A_4
  rw [View.read_writes_eq_canon _ _ _ (cover_A_4 c i arg1 harg1 arg2 harg2 arg3 harg3 arg4 harg4 arg5 harg5 arg6 harg6 hc0 x0 x1 x2 x3)]
  unfold kernelRun_A
  dsimp only
  sl_unfold_words
  rw [View.readCov_unit_zero (S := S10000x128) _ hz2]
  simp only [View.readAt_eq_ld, harg1.read_unread, harg2.read_unread, harg3.read_unread, harg4.read_unread,
    View.ld_unit_zero (S := S200x10000) hz2, View.ld_unit_zero (S := S10000x128) hz2, View.ld_unit_zero (S := S128x128) hz2]
  rfl

/-- The scratch after the first point. -/
theorem fe_eq (c : Dev nD) : fe m c = k0_pay1 (iblk m c 2 t0) (iblk m c 3 t0) := by
  unfold fe; exact sout_A_eq ..

/-- After EVERY point the output block is the two slabs over the first point's scratch. -/
theorem outAt_eq (c : Dev nD) (t : Fin cfg0.N) :
    outAt m c t = blockOf (iblk m c 0 t) (iblk m c 1 t) (k0_pay1 (iblk m c 2 t0) (iblk m c 3 t0)) := by
  by_cases h : t.val = 0
  · obtain rfl : t = t0 := Fin.ext h
    rw [outAt_A m c t0 h]; exact out_A_eq ..
  · rw [outAt_B m c t h, out_B_eq, fe_eq]

/-! ## Over the extended reals -/

/-- The scratch store at an entry: a plain sum over the 128 contracted positions. -/
theorem pay1_apply (x2 : Vec Ideal S10000x128 .f32) (x3 : Vec Ideal S128x128 .f32) (k : Fin 10000) (q : Fin 128) :
    k0_pay1 (F := Ideal) x2 x3 (ix2 k q) = ∑ j : Fin 128, (x2 (ix2 k j) : EReal) * (x3 (ix2 j q) : EReal) := by
  unfold k0_pay1
  refine (congrFun (shapeCast_self _ _) _).trans ?_
  exact PlainMatmul.apply ⟨rfl, rfl, rfl, rfl, rfl, rfl⟩ none x2 x3 k q

/-- The slab-0 store at an entry: a plain sum over the 10000 contracted rows. -/
theorem pay2_apply (xs : Vec Ideal S10000x128 .f32) (x0 : Vec Ideal S200x10000 .f32) (r : Fin 200) (q : Fin 128) :
    k0_pay2 (F := Ideal) xs x0 (ix3 (0 : Fin 1) r q) = ∑ k : Fin 10000, (x0 (ix2 r k) : EReal) * (xs (ix2 k q) : EReal) := by
  unfold k0_pay2
  refine (shapeCast_ab_1ab_apply _ _ (0 : Fin 1) r q).trans ?_
  exact PlainMatmul.apply ⟨rfl, rfl, rfl, rfl, rfl, rfl⟩ none x0 xs r q

/-- The slab-1 store at an entry. -/
theorem pay3_apply (xs : Vec Ideal S10000x128 .f32) (x1 : Vec Ideal S200x10000 .f32) (r : Fin 200) (q : Fin 128) :
    k0_pay3 (F := Ideal) xs x1 (ix3 (0 : Fin 1) r q) = ∑ k : Fin 10000, (x1 (ix2 r k) : EReal) * (xs (ix2 k q) : EReal) := by
  unfold k0_pay3
  refine (shapeCast_ab_1ab_apply _ _ (0 : Fin 1) r q).trans ?_
  exact PlainMatmul.apply ⟨rfl, rfl, rfl, rfl, rfl, rfl⟩ none x1 xs r q

/-- Two slab stores, slab 1 last, read at an entry of slab 1: the last store's payload. -/
theorem canon_slabs_bot {α : EltTy → Type} [∀ e, Nonempty (α e)] (w1 w0 : S1x200x128.Idx → α .f32) (r : Fin 200) (q : Fin 128) :
    View.canon (Val := α) [⟨Rect.unit (s := S2x200x128) ![1, 0, 0] S1x200x128.size inb_S2x200x128_S1x200x128_1_0_0, w1⟩,
      ⟨Rect.unit (s := S2x200x128) ![0, 0, 0] S1x200x128.size inb_S2x200x128_S1x200x128_0_0_0, w0⟩] (ix3 (1 : Fin 2) r q)
      = w1 (ix3 (0 : Fin 1) r q) := by
  have e : (ix3 (1 : Fin 2) r q : S2x200x128.Idx)
      = (Rect.unit (s := S2x200x128) ![1, 0, 0] S1x200x128.size inb_S2x200x128_S1x200x128_1_0_0).emb (ix3 (0 : Fin 1) r q) := by
    funext a; apply Fin.ext
    match a with
    | ⟨0, _⟩ => rfl
    | ⟨1, _⟩ => show r.val = 0 + 1 * r.val; omega
    | ⟨2, _⟩ => show q.val = 0 + 1 * q.val; omega
  rw [e, View.canon_cons_emb]

/-- The same read at an entry of slab 0: the last store does not reach it, so the first store's payload. -/
theorem canon_slabs_top {α : EltTy → Type} [∀ e, Nonempty (α e)] (w1 w0 : S1x200x128.Idx → α .f32) (r : Fin 200) (q : Fin 128) :
    View.canon (Val := α) [⟨Rect.unit (s := S2x200x128) ![1, 0, 0] S1x200x128.size inb_S2x200x128_S1x200x128_1_0_0, w1⟩,
      ⟨Rect.unit (s := S2x200x128) ![0, 0, 0] S1x200x128.size inb_S2x200x128_S1x200x128_0_0_0, w0⟩] (ix3 (0 : Fin 2) r q)
      = w0 (ix3 (0 : Fin 1) r q) := by
  have hn : (ix3 (0 : Fin 2) r q : S2x200x128.Idx)
      ∉ (Rect.unit (s := S2x200x128) ![1, 0, 0] S1x200x128.size inb_S2x200x128_S1x200x128_1_0_0).set := fun hm => by
    have h0 : (1 : ℕ) ≤ 0 := (Rect.mem_set_unit.mp hm 0).1
    omega
  have e : (ix3 (0 : Fin 2) r q : S2x200x128.Idx)
      = (Rect.unit (s := S2x200x128) ![0, 0, 0] S1x200x128.size inb_S2x200x128_S1x200x128_0_0_0).emb (ix3 (0 : Fin 1) r q) := by
    funext a; apply Fin.ext
    match a with
    | ⟨0, _⟩ => rfl
    | ⟨1, _⟩ => show r.val = 0 + 1 * r.val; omega
    | ⟨2, _⟩ => show q.val = 0 + 1 * q.val; omega
  refine (View.canon_cons_of_not_mem (Val := α) ⟨Rect.unit (s := S2x200x128) ![1, 0, 0] S1x200x128.size inb_S2x200x128_S1x200x128_1_0_0, w1⟩
    [⟨Rect.unit (s := S2x200x128) ![0, 0, 0] S1x200x128.size inb_S2x200x128_S1x200x128_0_0_0, w0⟩] hn).trans ?_
  rw [e, View.canon_cons_emb]

/-- Slab 1 of the block, at an entry: the bottom row block's row times the scratch's column. -/
theorem blockOf_bot (x0 x1 : Vec Ideal S200x10000 .f32) (xs : Vec Ideal S10000x128 .f32) (r : Fin 200) (q : Fin 128) :
    blockOf (F := Ideal) x0 x1 xs (ix3 (1 : Fin 2) r q) = ∑ k : Fin 10000, (x1 (ix2 r k) : EReal) * (xs (ix2 k q) : EReal) :=
  (canon_slabs_bot (α := Elt Ideal) (k0_pay3 xs x1) (k0_pay2 xs x0) r q).trans (pay3_apply xs x1 r q)

/-- Slab 0 of the block, at an entry: the top row block's row times the scratch's column. -/
theorem blockOf_top (x0 x1 : Vec Ideal S200x10000 .f32) (xs : Vec Ideal S10000x128 .f32) (r : Fin 200) (q : Fin 128) :
    blockOf (F := Ideal) x0 x1 xs (ix3 (0 : Fin 2) r q) = ∑ k : Fin 10000, (x0 (ix2 r k) : EReal) * (xs (ix2 k q) : EReal) :=
  (canon_slabs_top (α := Elt Ideal) (k0_pay3 xs x1) (k0_pay2 xs x0) r q).trans (pay2_apply xs x0 r q)

end Cert.KernelIdeal.Hand

end
-- ==== Proof.Spec.lean ====
/-
  The function both programs compute, over the extended reals: one layer of a dense graph convolution,
  `adj · (feat · W)` for a square matrix `adj` of side 10000, a feature matrix `feat` of 10000 rows and 128 columns and
  a weight matrix `W` of side 128.  Entry `(p, q)` of the result is the sum over the 10000 rows `k` of `adj (p, k)`
  times entry `(k, q)` of the embedding `feat · W`, itself a sum over 128 positions.  Both programs nest the two sums
  this way, so no law of the extended reals beyond reading a matrix product as a sum is needed.
-/
import Idealize.ShloMosaic.PureOps.Ideal
import Idealize.ShloMosaic.Lib.ValueIdx

noncomputable section

open scoped BigOperators
open Idealize.ShloMosaic Idealize.ShloMosaic.ValueIdx

namespace GraphLayer

/-- Entry `(k, q)` of the embedding `feat · W`. -/
def embed (feat : FVec Ideal (⟨2, ![10000, 128]⟩ : Shape) .f32) (W : FVec Ideal (⟨2, ![128, 128]⟩ : Shape) .f32)
    (k : Fin 10000) (q : Fin 128) : EReal :=
  ∑ j : Fin 128, (feat (ix2 k j) : EReal) * (W (ix2 j q) : EReal)

/-- Entry `(p, q)` of `adj · (feat · W)`. -/
def entry (feat : FVec Ideal (⟨2, ![10000, 128]⟩ : Shape) .f32) (adj : FVec Ideal (⟨2, ![10000, 10000]⟩ : Shape) .f32)
    (W : FVec Ideal (⟨2, ![128, 128]⟩ : Shape) .f32) (p : Fin 10000) (q : Fin 128) : EReal :=
  ∑ k : Fin 10000, (adj (ix2 p k) : EReal) * embed feat W k q

/-- The whole result. -/
def result (feat : FVec Ideal (⟨2, ![10000, 128]⟩ : Shape) .f32) (adj : FVec Ideal (⟨2, ![10000, 10000]⟩ : Shape) .f32)
    (W : FVec Ideal (⟨2, ![128, 128]⟩ : Shape) .f32) : FVec Ideal (⟨2, ![10000, 128]⟩ : Shape) .f32 :=
  fun i => entry feat adj W (i 0) (i 1)

theorem result_apply (feat : FVec Ideal (⟨2, ![10000, 128]⟩ : Shape) .f32) (adj : FVec Ideal (⟨2, ![10000, 10000]⟩ : Shape) .f32)
    (W : FVec Ideal (⟨2, ![128, 128]⟩ : Shape) .f32) (p : Fin 10000) (q : Fin 128) :
    result feat adj W (ix2 p q) = entry feat adj W p q := rfl

end GraphLayer

end
-- ==== Proof.IdealFinal.lean ====
/-
  The kernel's result, as one function of the three argument arrays.

  Point `t` writes back block `t` of the output array [2, 5000, 128]: rows `200·t … 200·t + 199` of both slabs.  Slab 0
  there is the matrix's rows `200·t + r` times the embedding, slab 1 the rows `5000 + 200·t + r` (the bottom window is
  block `t + 25` of the same matrix).  So the output array at `(h, r', q)` is entry `(5000·h + r', q)` of the
  specification, the 25 blocks cover the array, and the reshape to [10000, 128] reads it in the same row-major order.
-/
import proofs.«145332_g35888746725567_cont_8to1_b_717_11_alg».proof.Proof.IdealBlock
import proofs.«145332_g35888746725567_cont_8to1_b_717_11_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

local notation "𝕄" => MT nD τ sig Unit (Elt Ideal) ℕ (UR sig nD τ) ℕ

variable (m : (ℓ : Loc nD τ sig) → Buf (Elt Ideal) ℓ) (ρ : Dev nD → PrngReg)

open scoped BigOperators
open Idealize.ShloMosaic.ValueIdx

/-! ## The printed index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val + 25 ∧ win0_1.index t (1 : Fin 2) = 0 :=
  (by decide +kernel : ∀ t : Fin grid0.N, win0_1.index t (0 : Fin 2) = t.val + 25 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 3) = 0 ∧ win0_4.index t (1 : Fin 3) = t.val ∧ win0_4.index t (2 : Fin 3) = 0 :=
  (by decide +kernel : ∀ t : Fin grid0.N, win0_4.index t (0 : Fin 3) = 0 ∧ win0_4.index t (1 : Fin 3) = t.val ∧ win0_4.index t (2 : Fin 3) = 0)

/-! ## The input blocks at an entry -/

/-- The top row block at point `t`, row `r`: the matrix's row `200·t + r`. -/
theorem iblk0_apply (c : Dev nD) (t : Fin cfg0.N) (r : Fin 200) (k : Fin 10000) (p : Fin 10000) (hp : p.val = 200 * t.val + r.val) :
    (iblk m c 0 t : Vec Ideal S200x10000 .f32) (ix2 r k) = m ((c.tc : Thread nD τ).loc main_arg1) (ix2 p k) := by
  unfold iblk
  rw [View.read_apply]
  show V m c main_arg1 _ = m (c.tc.loc main_arg1) _
  unfold V
  congr 1
  funext a
  apply Fin.ext
  match a with
  | ⟨0, _⟩ => show win0_0.index t (0 : Fin 2) * 200 + 1 * r.val = p.val; rw [(idx0 t).1, hp]; omega
  | ⟨1, _⟩ => show win0_0.index t (1 : Fin 2) * 10000 + 1 * k.val = k.val; rw [(idx0 t).2]; omega

/-- The bottom row block at point `t`, row `r`: the matrix's row `5000 + 200·t + r`. -/
theorem iblk1_apply (c : Dev nD) (t : Fin cfg0.N) (r : Fin 200) (k : Fin 10000) (p : Fin 10000) (hp : p.val = 5000 + 200 * t.val + r.val) :
    (iblk m c 1 t : Vec Ideal S200x10000 .f32) (ix2 r k) = m ((c.tc : Thread nD τ).loc main_arg1) (ix2 p k) := by
  unfold iblk
  rw [View.read_apply]
  show V m c main_arg1 _ = m (c.tc.loc main_arg1) _
  unfold V
  congr 1
  funext a
  apply Fin.ext
  match a with
  | ⟨0, _⟩ => show win0_1.index t (0 : Fin 2) * 200 + 1 * r.val = p.val; rw [(idx1 t).1, hp]; omega
  | ⟨1, _⟩ => show win0_1.index t (1 : Fin 2) * 10000 + 1 * k.val = k.val; rw [(idx1 t).2]; omega

/-- The feature window's block is the whole feature matrix. -/
theorem iblk2_apply (c : Dev nD) (t : Fin cfg0.N) (k : Fin 10000) (j : Fin 128) :
    (iblk m c 2 t : Vec Ideal S10000x128 .f32) (ix2 k j) = m ((c.tc : Thread nD τ).loc main_arg0) (ix2 k j) := by
  unfold iblk
  rw [View.read_apply]
  show V m c main_arg0 _ = m (c.tc.loc main_arg0) _
  unfold V
  congr 1
  funext a
  apply Fin.ext
  match a with
  | ⟨0, _⟩ => show win0_2.index t (0 : Fin 2) * 10000 + 1 * k.val = k.val; rw [(idx2 t).1]; omega
  | ⟨1, _⟩ => show win0_2.index t (1 : Fin 2) * 128 + 1 * j.val = j.val; rw [(idx2 t).2]; omega

/-- The weight window's block is the whole weight matrix. -/
theorem iblk3_apply (c : Dev nD) (t : Fin cfg0.N) (j : Fin 128) (q : Fin 128) :
    (iblk m c 3 t : Vec Ideal S128x128 .f32) (ix2 j q) = m ((c.tc : Thread nD τ).loc main_arg2) (ix2 j q) := by
  unfold iblk
  rw [View.read_apply]
  show V m c main_arg2 _ = m (c.tc.loc main_arg2) _
  unfold V
  congr 1
  funext a
  apply Fin.ext
  match a with
  | ⟨0, _⟩ => show win0_3.index t (0 : Fin 2) * 128 + 1 * j.val = j.val; rw [(idx3 t).1]; omega
  | ⟨1, _⟩ => show win0_3.index t (1 : Fin 2) * 128 + 1 * q.val = q.val; rw [(idx3 t).2]; omega

/-! ## The output array as one function -/

/-- Row `5000·a + b` of the result (reduced into range, which the indices met never need). -/
def rowOf (a b : ℕ) : Fin 10000 := ⟨(5000 * a + b) % 10000, Nat.mod_lt _ (by decide)⟩
/-- Column `a` (likewise). -/
def colOf (a : ℕ) : Fin 128 := ⟨a % 128, Nat.mod_lt _ (by decide)⟩

theorem rowOf_eq (a b : ℕ) (p : Fin 10000) (h : 5000 * a + b = p.val) : rowOf a b = p :=
  Fin.ext (by show (5000 * a + b) % 10000 = p.val; rw [h]; exact Nat.mod_eq_of_lt p.isLt)
theorem colOf_eq (a : ℕ) (q : Fin 128) (h : a = q.val) : colOf a = q :=
  Fin.ext (by show a % 128 = q.val; rw [h]; exact Nat.mod_eq_of_lt q.isLt)

/-- What the output array [2, 5000, 128] ends holding: at `(h, r', q)` the specification's entry `(5000·h + r', q)`. -/
def G3 (c : Dev nD) : S2x5000x128.Idx → Elt Ideal .f32 := fun i =>
  GraphLayer.entry (m ((c.tc : Thread nD τ).loc main_arg0)) (m ((c.tc : Thread nD τ).loc main_arg1)) (m ((c.tc : Thread nD τ).loc main_arg2))
    (rowOf (i 0).val (i 1).val) (colOf (i 2).val)

/-- An entry of the specification from what a point stages: a row of a row block, which is row `p` of the matrix,
    against the embedding the first point left in the scratch. -/
theorem row_sum (c : Dev nD) (x : Vec Ideal S200x10000 .f32) (r : Fin 200) (q : Fin 128) (p : Fin 10000)
    (hp : ∀ k : Fin 10000, x (ix2 r k) = m ((c.tc : Thread nD τ).loc main_arg1) (ix2 p k)) :
    (∑ k : Fin 10000, (x (ix2 r k) : EReal)
        * ((k0_pay1 (F := Ideal) (iblk m c 2 t0) (iblk m c 3 t0)) (ix2 k q) : EReal))
      = GraphLayer.entry (m ((c.tc : Thread nD τ).loc main_arg0)) (m ((c.tc : Thread nD τ).loc main_arg1)) (m ((c.tc : Thread nD τ).loc main_arg2)) p q := by
  unfold GraphLayer.entry GraphLayer.embed
  refine Finset.sum_congr rfl fun k _ => ?_
  rw [hp k, pay1_apply]
  congr 1
  refine Finset.sum_congr rfl fun j _ => ?_
  rw [iblk2_apply, iblk3_apply]

/-- WHAT POINT `t` WRITES BACK is block `t` of `G3`. -/
theorem flushed_eq (c : Dev nD) (t : Fin cfg0.N) :
    (dats m 0 c).flushed 4 t = ((cfg0.win 4).blk t).view.read (Elt Ideal) (G3 m c) := by
  show (cfg0.win 4).cut (grid0.coords t) ((dats m 0 c).after 4 t) = _
  rw [after0_4, outAt_eq]
  have hN : cfg0.N = 25 := N_0
  have ht : t.val < 25 := lt_of_lt_of_eq t.isLt hN
  obtain ⟨e0, e1, e2⟩ := idx4 t
  funext y
  obtain ⟨h, r, q, rfl⟩ : ∃ (h : Fin 2) (r : Fin 200) (q : Fin 128), y = ix3 h r q := ⟨y 0, y 1, y 2, eq_ix3 y⟩
  rw [View.read_apply]
  have hr : r.val < 200 := r.isLt
  have hq : q.val < 128 := q.isLt
  have v0 : ((((cfg0.win 4).blk t).view.emb (ix3 h r q)) 0).val = h.val := by
    show win0_4.index t (0 : Fin 3) * 2 + 1 * h.val = h.val; rw [e0]; omega
  have v1 : ((((cfg0.win 4).blk t).view.emb (ix3 h r q)) 1).val = 200 * t.val + r.val := by
    show win0_4.index t (1 : Fin 3) * 200 + 1 * r.val = _; rw [e1]; omega
  have v2 : ((((cfg0.win 4).blk t).view.emb (ix3 h r q)) 2).val = q.val := by
    show win0_4.index t (2 : Fin 3) * 128 + 1 * q.val = q.val; rw [e2]; omega
  show blockOf (F := Ideal) _ _ _ (ix3 h r q) = G3 m c (((cfg0.win 4).blk t).view.emb (ix3 h r q))
  unfold G3
  rw [v0, v1, v2, colOf_eq q.val q rfl]
  match h with
  | ⟨0, _⟩ =>
    have hb : 200 * t.val + r.val < 10000 := by omega
    rw [rowOf_eq 0 (200 * t.val + r.val) ⟨200 * t.val + r.val, hb⟩
      (by show 5000 * 0 + (200 * t.val + r.val) = 200 * t.val + r.val; omega)]
    refine (blockOf_top _ _ _ r q).trans ?_
    exact row_sum m c _ r q ⟨200 * t.val + r.val, hb⟩ fun k => iblk0_apply m c t r k ⟨200 * t.val + r.val, hb⟩ rfl
  | ⟨1, _⟩ =>
    have hb : 5000 + 200 * t.val + r.val < 10000 := by omega
    rw [rowOf_eq 1 (200 * t.val + r.val) ⟨5000 + 200 * t.val + r.val, hb⟩
      (by show 5000 * 1 + (200 * t.val + r.val) = 5000 + 200 * t.val + r.val; omega)]
    refine (blockOf_bot _ _ _ r q).trans ?_
    exact row_sum m c _ r q ⟨5000 + 200 * t.val + r.val, hb⟩ fun k => iblk1_apply m c t r k ⟨5000 + 200 * t.val + r.val, hb⟩ rfl

/-- An index of the output array is in point `t`'s block iff each coordinate is in the block's range on its axis. -/
theorem mem_blk4 (t : Fin cfg0.N) (i : S2x5000x128.Idx) :
    i ∈ ((cfg0.win 4).blk t).view.set ↔ ∀ a : Fin 3, win0_4.index t a * S2x200x128.size a ≤ (i a).val ∧ (i a).val < win0_4.index t a * S2x200x128.size a + S2x200x128.size a := by
  show i ∈ ((View.whole main_v0).slice (win0_4.rect t)).set ↔ _
  rw [View.set_slice_whole, Rect.mem_set_unit]
  exact Iff.rfl

/-- The 25 blocks cover the output array: row `r'` is in block `r' / 200`. -/
theorem covered4 (i : S2x5000x128.Idx) : ∃ t : Fin cfg0.N, (cfg0.win 4).flush t = true ∧ i ∈ ((cfg0.win 4).blk t).view.set := by
  have hN : cfg0.N = 25 := N_0
  have hi0 : (i 0).val < 2 := (i 0).isLt
  have hi1 : (i 1).val < 5000 := (i 1).isLt
  have hi2 : (i 2).val < 128 := (i 2).isLt
  refine ⟨⟨(i 1).val / 200, by omega⟩, flush0_4 _, ?_⟩
  rw [mem_blk4]
  obtain ⟨e0, e1, e2⟩ := idx4 ⟨(i 1).val / 200, by omega⟩
  intro a
  match a with
  | ⟨0, _⟩ => show win0_4.index _ (0 : Fin 3) * 2 ≤ (i 0).val ∧ (i 0).val < win0_4.index _ (0 : Fin 3) * 2 + 2; rw [e0]; omega
  | ⟨1, _⟩ => show win0_4.index _ (1 : Fin 3) * 200 ≤ (i 1).val ∧ (i 1).val < win0_4.index _ (1 : Fin 3) * 200 + 200; rw [e1]; show (i 1).val / 200 * 200 ≤ _ ∧ _ < (i 1).val / 200 * 200 + 200; omega
  | ⟨2, _⟩ => show win0_4.index _ (2 : Fin 3) * 128 ≤ (i 2).val ∧ (i 2).val < win0_4.index _ (2 : Fin 3) * 128 + 128; rw [e2]; omega

/-- THE OUTPUT ARRAY after the run is `G3`. -/
theorem final4 (c : Dev nD) : (dats m 0 c).arrAt 4 cfg0.N = G3 m c :=
  (dats m 0 c).arrAt_eq_of_cover 4 (G3 m c) (fun t _ => flushed_eq m c t) (covered4)

end Cert.KernelIdeal.Hand

end
-- ==== Proof.IdealResult.lean ====
/-
  The kernel's run, read: the result buffer ends at the specification of the three argument arrays, which end
  unchanged.  The result buffer is the reshape of the output array [2, 5000, 128] to [10000, 128]; both are read in
  row-major order, so entry `(p, q)` of the result is the output array's entry `(p / 5000, p % 5000, q)`.
-/
import proofs.«145332_g35888746725567_cont_8to1_b_717_11_alg».proof.Proof.IdealFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open SharedArrayFrameTail (tailSet)

local notation "𝕄" => MT nD τ sig Unit (Elt Ideal) ℕ (UR sig nD τ) ℕ

variable (m : (ℓ : Loc nD τ sig) → Buf (Elt Ideal) ℓ) (ρ : Dev nD → PrngReg)

open scoped BigOperators
open Idealize.ShloMosaic.ValueIdx

/-- The reshape of the output array's final contents is the specification. -/
theorem result_eq (c : Dev nD) :
    StableHlo.after ([hostOps1] : List (List (HloOp τ sig (Elt Ideal)))).flatten (Wv m c) (Proc.devRef .tc main_v1)
      = GraphLayer.result (m ((c.tc : Thread nD τ).loc main_arg0)) (m ((c.tc : Thread nD τ).loc main_arg1)) (m ((c.tc : Thread nD τ).loc main_arg2)) := by
  show StableHlo.after hostOps1 (Wv m c) (Proc.devRef .tc main_v1) = _
  after_results
  funext j
  show shapeCast S10000x128 (Wv m c (Proc.devRef .tc main_v0)) shapeCasts_S2x5000x128_S10000x128 j = _
  rw [show Wv m c (Proc.devRef .tc main_v0) = (dats m 0 c).arrAt 4 cfg0.N from Wv_out m c, final4]
  obtain ⟨p, q, rfl⟩ : ∃ (p : Fin 10000) (q : Fin 128), j = ix2 p q := ⟨j 0, j 1, eq_ix2 j⟩
  have hp : p.val < 10000 := p.isLt
  refine (shapeCast_apply (G3 m c) _ (ix2 p q)
    (ix3 (⟨p.val / 5000, by omega⟩ : Fin 2) (⟨p.val % 5000, by omega⟩ : Fin 5000) q) ?_).trans ?_
  · rw [Shape.rowMajor_val_three, Shape.rowMajor_val_two]
    show (p.val / 5000 * 5000 + p.val % 5000) * 128 + q.val = p.val * 128 + q.val
    omega
  · show GraphLayer.entry _ _ _ (rowOf (p.val / 5000) (p.val % 5000)) (colOf q.val) = _
    rw [rowOf_eq (p.val / 5000) (p.val % 5000) p (by omega), colOf_eq q.val q rfl, GraphLayer.result_apply]

/-- Every weakly fair execution of the idealized kernel's @main terminates, nothing faulting, with the result buffer
    at the specification of the argument arrays and the argument arrays unchanged. -/
theorem run : θ_run defs (onTc (τ := τ) (main (F := Ideal))) ⟨m, fun _ => 0, ρ⟩ (fun r => ∀ c : Dev nD,
      r.2.mem ((c.tc : Thread nD τ).loc main_v1)
        = GraphLayer.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v1 (Pipeline.mem_restRefs_of main_v1 rfl (by decide))).trans (result_eq m c),
      ((h c).1 2).trans (arr_in m c 2 rfl), ((h c).1 0).trans (arr_in m c 0 rfl), ((h c).1 3).trans (arr_in m c 3 rfl)⟩) (run_main m ρ)

end Cert.KernelIdeal.Hand

end
-- ==== Proof.LibDot.lean ====
/-
  A plain matrix product computed by the host's general contraction, read at an entry, over the extended reals.

  For dimension numbers that contract the left operand's second axis with the right operand's first and have no
  batch axis, the contraction `[M, K] × [K, N] → [M, N]` has at the entry `(p, q)` the value
  `∑ k, lhs (p, k) * rhs (k, q)` — the same textbook sum a product accumulated into the zero matrix has.
-/
import proofs.«145332_g35888746725567_cont_8to1_b_717_11_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The host's contraction with plain dimension numbers, at the entry `(p, q)`, is the sum over the contracted axis
    of the products of the left operand's row `p` with the right operand's column `q`. -/
theorem host_apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    Host.dotGeneral d prec lhs rhs (ix2 p q) = ∑ k : Fin K, (lhs (ix2 p k) : EReal) * (rhs (ix2 k q) : EReal) := by
  simp only [Host.dotGeneral]
  rw [Ideal.dotGeneral_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.RefValue.lean ====
/-
  The reference computes the specification: its result is the host's product of the square matrix with the host's
  product of the feature matrix and the weight matrix, and each host product, read at an entry over the extended
  reals, is the plain sum over the contracted axis.
-/
import proofs.«145332_g35888746725567_cont_8to1_b_717_11_alg».proof.Defs
import proofs.«145332_g35888746725567_cont_8to1_b_717_11_alg».proof.Proof.Gen.ReferenceIdeal.Run
import proofs.«145332_g35888746725567_cont_8to1_b_717_11_alg».proof.Proof.LibDot
import proofs.«145332_g35888746725567_cont_8to1_b_717_11_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-- The two host products nested as the reference nests them are the specification. -/
theorem result_eq (feat : FVec Ideal S10000x128 .f32) (adj : FVec Ideal S10000x10000 .f32) (W : FVec Ideal S128x128 .f32) :
    Host.dotGeneral dot_S10000x10000_S10000x128_S10000x128_1_0_0_1_n_n none adj
        (Host.dotGeneral dot_S10000x128_S128x128_S10000x128_1_0_0_1_n_n none feat W)
      = GraphLayer.result feat adj W := by
  funext j
  obtain ⟨p, q, rfl⟩ : ∃ (p : Fin 10000) (q : Fin 128), j = ix2 p q := ⟨j 0, j 1, eq_ix2 j⟩
  rw [GraphLayer.result_apply]
  refine (PlainMatmul.host_apply ⟨rfl, rfl, rfl, rfl, rfl, rfl⟩ none adj _ p q).trans ?_
  unfold GraphLayer.entry GraphLayer.embed
  refine Finset.sum_congr rfl fun k _ => ?_
  rw [PlainMatmul.host_apply ⟨rfl, rfl, rfl, rfl, rfl, rfl⟩ none feat W k q]

end Cert.ReferenceIdeal.RefValue

end
-- ==== Proof.lean ====
/-
  The certificate of a dense graph-convolution layer, `adj · (feat · W)`: a pipelined kernel against jnp's two matrix
  products.

  The kernel walks 25 grid points.  At each it is handed TWO row blocks of the same 10000 × 10000 matrix (200 rows from
  the top half, the 200 rows 5000 further down), the whole 10000 × 128 feature matrix and the whole 128 × 128 weight
  matrix; at the first point it stores their product, the embedding, in a scratch it keeps for all later points; at
  every point it multiplies each row block by the embedding and stores the two products as the two slabs of its
  [2, 200, 128] output block.  A reshape of the [2, 5000, 128] output gives the [10000, 128] result.

  The frames.  Two windows read one array, so that array's buffer is held in two half shares, one per window; the
  scratch is carried by an invariant that changes after the first point (anything before it, the embedding after).
  The body is run once for the first point and once for a later point.  The three argument arrays are input windows'
  arrays: nothing is written back into them.

  The values.  Over the extended reals a product accumulated into zero is the plain sum over the contracted axis, for
  the kernel's matrix unit and for the host's contraction alike.  Entry `(p, q)` of both programs' results is
  `∑ k, adj (p, k) · (∑ j, feat (k, j) · W (j, q))`, nested the same way on both sides: no law of the extended reals is
  used beyond that, and the precondition is never opened.  The idealization rewrote nothing.
-/
import proofs.«145332_g35888746725567_cont_8to1_b_717_11_alg».proof.Defs
import proofs.«145332_g35888746725567_cont_8to1_b_717_11_alg».proof.Proof.Gen.Kernel
import proofs.«145332_g35888746725567_cont_8to1_b_717_11_alg».proof.Proof.Gen.KernelIdeal
import proofs.«145332_g35888746725567_cont_8to1_b_717_11_alg».proof.Proof.Gen.ReferenceIdeal
import proofs.«145332_g35888746725567_cont_8to1_b_717_11_alg».proof.Proof.Gen.ReferenceIdeal.Run
import proofs.«145332_g35888746725567_cont_8to1_b_717_11_alg».proof.Proof.Gen.Pre_finite_inputs
import proofs.«145332_g35888746725567_cont_8to1_b_717_11_alg».proof.Proof.BitsRun
import proofs.«145332_g35888746725567_cont_8to1_b_717_11_alg».proof.Proof.IdealResult
import proofs.«145332_g35888746725567_cont_8to1_b_717_11_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the layer's result of the argument arrays. -/
theorem algebraic : Cert.algebraic_KernelIdeal_ReferenceIdeal := by
  intro m ρ m' ρ' _ hagree
  refine ⟨fun c => GraphLayer.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
